-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x128 : Shape := ⟨2, ![4000, 128]⟩
abbrev S4000x64 : Shape := ⟨2, ![4000, 64]⟩
abbrev S1700000x64 : Shape := ⟨2, ![1700000, 64]⟩
abbrev S1x64 : Shape := ⟨2, ![1, 64]⟩
abbrev S100000x32 : Shape := ⟨2, ![100000, 32]⟩
abbrev S4000x32 : Shape := ⟨2, ![4000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x32, .f32⟩
  | .local _ .vmem, ⟨8, _⟩ => ⟨S4000x32, .f32⟩
  | .local _ .vmem, ⟨9, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x32_S4000x32_1_0_0_1_n_n_wf : DotDims.WF S4000x64 S64x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Stages.lean ====
/-
  The graph convolution's host-side stages, as named functions of the arrays they read, and the reference's
  result as their composition.

  The network is two graph-convolution layers over N = 100000 nodes and E = 1600000 directed edges, to which one
  self-loop per node is added (1700000 edges in all):

    * `srcIdx e`, `dstIdx e` — row 0 (row 1) of the edge list followed by 0, 1, …, N − 1;
    * `wrapCol s` — a vector of node numbers with the negative ones wrapped (i < 0 ↦ i + N), laid as a column:
      the start indices of a row gather; `dstCol e` — the destinations as a column: a scatter's indices;
    * `deg e` — the in-degree, self-loops counted: ones scatter-added at the destinations onto zeros;
    * `dinv e` — deg^(−1/2) where the degree is positive, zero elsewhere;
    * `norm e` — per edge, dinv at its source times dinv at its destination;
    * `aggregate64` / `aggregate32` — one layer's aggregation and bias from the rows, the two edge vectors and the
      normalisation given separately; `rectify` — the maximum with zero;
    * `hidden h e b` — the first layer after its linear map: rows of `h` gathered at the sources, scaled by `norm`,
      scatter-added at the destinations onto zeros, the bias added to every row, then the maximum with zero;
    * `output h e b` — the second layer likewise, without the rectifier.

  The reference is `output (hidden (x · W1) e b1 · W2) e b2`, each product the host's `dot_general`; it recomputes
  `norm` for the second layer from the same edge list, which is the same function applied to the same array.
  Everything here is stated for any float values: no arithmetic law is used, only which operation reads which.
-/
import proofs.«100475_j59562606461344_1_alg».proof.Proof.RefRun

set_option maxRecDepth 16384

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- Row 0 of the edge list (the sources), then one self-loop per node. -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list (the destinations), then one self-loop per node. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers with the negative ones wrapped (i < 0 ↦ i + 100000), as a column. -/
def wrapCol (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The destinations as a column. -/
def dstCol (e : (⟨S2x1600000, .i32⟩ : BufTy).Contents (Elt F)) : (⟨S1700000x1, .i32⟩ : BufTy).Contents (Elt F) :=
  broadcastInDim S1700000x1 ![0] bcast_S1700000_S1700000x1_0 (dstIdx (F := F) e)

/-- The in-degree of every node, self-loops counted. -/
def deg (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (dstCol (F := F) e) (broadcastInDim S1700000 ![] bcast_S_S1700000 (constant S_ .f32 0x3F800000#32))

/-- deg^(−1/2) where the degree is positive, zero elsewhere. -/
def dinv (e : (⟨S2x1600000, .i32⟩ : BufTy).Contents (Elt F)) : (⟨S100000, .f32⟩ : BufTy).Contents (Elt F) :=
  select (cmpf (F := F) .ogt (deg (F := F) e) (broadcastInDim S100000 ![] bcast_S_S100000 (constant S_ .f32 0x00000000#32))) (Host.rsqrt (deg (F := F) e)) (broadcastInDim S100000 ![] bcast_S_S100000 (id (constant S_ .f32 0x00000000#32)))

/-- Per edge: dinv at its source times dinv at its destination. -/
def norm (e : (⟨S2x1600000, .i32⟩ : BufTy).Contents (Elt F)) : (⟨S1700000, .f32⟩ : BufTy).Contents (Elt F) :=
  mulf (Host.gather gather_S100000_S1700000x1_S1700000_n_0_n_n_0_1_1 (dinv (F := F) e) (wrapCol (F := F) (srcIdx (F := F) e))) (Host.gather gather_S100000_S1700000x1_S1700000_n_0_n_n_0_1_1 (dinv (F := F) e) (wrapCol (F := F) (dstIdx (F := F) e)))

/-- One layer's aggregation and bias, from the rows `h`, the source and destination vectors and the per-edge
    normalisation: gather the rows at the wrapped sources, scale each edge's row by its normalisation, scatter-add
    at the destinations onto zeros, add the bias to every row. Width 64. -/
def aggregate64 (h : (⟨S100000x64, .f32⟩ : BufTy).Contents (Elt F)) (src dst : (⟨S1700000, .i32⟩ : BufTy).Contents (Elt F))
    (nrm : (⟨S1700000, .f32⟩ : BufTy).Contents (Elt F)) (b : (⟨S64, .f32⟩ : BufTy).Contents (Elt F)) :
    (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (wrapCol (F := F) src)) (broadcastInDim S1700000x64 ![0, 1] bcast_S1700000x1_S1700000x64_0_1 (broadcastInDim S1700000x1 ![0] bcast_S1700000_S1700000x1_0 nrm)))) (broadcastInDim S100000x64 ![0, 1] bcast_S1x64_S100000x64_0_1 (broadcastInDim S1x64 ![1] bcast_S64_S1x64_1 b))

/-- The same, width 32. -/
def aggregate32 (h : (⟨S100000x32, .f32⟩ : BufTy).Contents (Elt F)) (src dst : (⟨S1700000, .i32⟩ : BufTy).Contents (Elt F))
    (nrm : (⟨S1700000, .f32⟩ : BufTy).Contents (Elt F)) (b : (⟨S32, .f32⟩ : BufTy).Contents (Elt F)) :
    (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 dst) (mulf (Host.gather gather_S100000x32_S1700000x1_S1700000x32_1_0_n_n_0_1_132 h (wrapCol (F := F) src)) (broadcastInDim S1700000x32 ![0, 1] bcast_S1700000x1_S1700000x32_0_1 (broadcastInDim S1700000x1 ![0] bcast_S1700000_S1700000x1_0 nrm)))) (broadcastInDim S100000x32 ![0, 1] bcast_S1x32_S100000x32_0_1 (broadcastInDim S1x32 ![1] bcast_S32_S1x32_1 b))

/-- The rectifier: the maximum with zero, entry by entry. -/
def rectify (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The first layer after its linear map `h`: aggregate over the edges of `e`, add the bias, rectify. -/
def hidden (h : (⟨S100000x64, .f32⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  rectify (F := F) (aggregate64 (F := F) h (srcIdx (F := F) e) (dstIdx (F := F) e) (norm (F := F) e) b)

/-- The second layer after its linear map `h`: the same aggregation and bias, no rectifier. -/
def output (h : (⟨S100000x32, .f32⟩ : BufTy).Contents (Elt F)) (e : (⟨S2x1600000, .i32⟩ : BufTy).Contents (Elt F))
    (b : (⟨S32, .f32⟩ : BufTy).Contents (Elt F)) : (⟨S100000x32, .f32⟩ : BufTy).Contents (Elt F) :=
  aggregate32 (F := F) h (srcIdx (F := F) e) (dstIdx (F := F) e) (norm (F := F) e) b

/-- The reference's result IS the two layers composed, each linear map the host's `dot_general`: the generated
    term read stage by stage (it writes every stage out in full; the stages above are its subterms). -/
theorem result_eq (m : (ℓ : Loc nD τ sig) → Buf (Elt F) ℓ) (c : Dev nD) :
    Cert.ReferenceIdeal.ValueP.res_out0 m c
      = output (F := F) (Host.dotGeneral dot_S100000x64_S64x32_S100000x32_1_0_0_1_n_n none
          (hidden (F := F) (Host.dotGeneral dot_S100000x128_S128x64_S100000x64_1_0_0_1_n_n none
              (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)))
        (m ((c.tc : Thread nD τ).loc main_arg1)) (m ((c.tc : Thread nD τ).loc main_arg5)) := by
  show Cert.ReferenceIdeal.ValueP.res_main_v87 m c = _
  unfold Cert.ReferenceIdeal.ValueP.res_main_v87
  rfl

end Cert.ReferenceIdeal.Stages

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«100475_j59562606461344_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.RefProducts.lean ====
/-
  The reference's result with its two linear maps written as plain products.

  Each `dot_general` of the reference contracts the last axis of its left operand with the first of its right
  one — rows times columns — so on the extended reals it is `rowsTimes`, entry by entry the sum over k of
  a (r, k) · w (k, j). The reference is therefore
      output (rowsTimes (hidden (rowsTimes x W1) e b1) W2) e b2,
  the very expression the kernel's result buffer ends at.
-/
import proofs.«100475_j59562606461344_1_alg».proof.Proof.Stages
import proofs.«100475_j59562606461344_1_alg».proof.Proof.LibRowsCols

set_option maxRecDepth 16384

noncomputable section

namespace Cert.ReferenceIdeal.Stages

open Cert.ReferenceIdeal Cert.ReferenceIdeal.Gen Cert.Dense Idealize.ShloMosaic Idealize.ShloMosaic.TcCoe Idealize.SL.Sem

/-- The first layer's contraction, [100000, 128] with [128, 64], is rows times columns. -/
theorem rowsCols1 : RowsCols (R := 100000) (K := 128) (N := 64) dot_S100000x128_S128x64_S100000x64_1_0_0_1_n_n where
  rank := rfl
  size := rfl
  l0 := fun _ _ => rfl
  l1 := fun _ _ => rfl
  r0 := fun _ _ => rfl
  r1 := fun _ _ => rfl

/-- The second layer's contraction, [100000, 64] with [64, 32], is rows times columns. -/
theorem rowsCols2 : RowsCols (R := 100000) (K := 64) (N := 32) dot_S100000x64_S64x32_S100000x32_1_0_0_1_n_n where
  rank := rfl
  size := rfl
  l0 := fun _ _ => rfl
  l1 := fun _ _ => rfl
  r0 := fun _ _ => rfl
  r1 := fun _ _ => rfl

/-- The reference's result: the two layers, each linear map the product of its arrays. -/
theorem result_products (m : (ℓ : Loc nD τ sig) → Buf (Elt Ideal) ℓ) (c : Dev nD) :
    Cert.ReferenceIdeal.ValueP.res_out0 m c
      = output (F := Ideal)
          (rowsTimes (M := 100000) (K := 64) (N := 32)
            (hidden (F := Ideal)
              (rowsTimes (M := 100000) (K := 128) (N := 64) (m ((c.tc : Thread nD τ).loc main_arg0)) (m ((c.tc : Thread nD τ).loc main_arg2)))
              (m ((c.tc : Thread nD τ).loc main_arg1)) (m ((c.tc : Thread nD τ).loc main_arg3)))
            (m ((c.tc : Thread nD τ).loc main_arg4)))
          (m ((c.tc : Thread nD τ).loc main_arg1)) (m ((c.tc : Thread nD τ).loc main_arg5)) := by
  rw [result_eq, dotGeneral_eq rowsCols1, dotGeneral_eq rowsCols2]

end Cert.ReferenceIdeal.Stages

end
-- ==== Proof.KernelRun.lean ====
/-
  The idealized kernel's whole run, with what it leaves NAMED.

  @main is eight segments: three stretches of host operations, the first matrix product's region, two more
  stretches, the second product's region, and a last stretch. The generated frame chains them from the launch
  memory and names the TensorCore's buffer contents at every boundary (`Gen.W0` … `Gen.W8`, each the previous one
  carried through a stretch's operations or a region's write-backs). Its stated post keeps only the arguments.
  Here the same chain is read against the final state once more, keeping the RESULT buffer too: every weakly fair
  execution terminates with the result at `Gen.W8`'s contents for that buffer, the arguments as launched.
-/
import proofs.«100475_j59562606461344_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.KernelEntry.lean ====
/-
  The buffers the first region finds: the edge vectors, the per-edge normalisation, the float arguments.

  Three stretches of host operations run before the first region. Each is read at an ARBITRARY starting
  valuation `V` of the buffers — an operation writes its own result buffer and leaves the others, so what a
  stretch leaves in a buffer is a term over what `V` held in the buffers the stretch reads:

    * the first stretch builds the source and destination vectors (`Stages.srcIdx`, `dstIdx`), the degree, and from it
      the mask "degree > 0" and the degree's inverse square root;
    * the second (the helper that selects) picks the inverse square root where the mask holds and zero elsewhere;
    * the third gathers that at the wrapped sources and destinations and multiplies: the normalisation.

  Chained from the launch memory these give the first region's entry contents; the float arguments pass through
  all three stretches untouched.
-/
import proofs.«100475_j59562606461344_1_alg».proof.Proof.Gen.KernelIdeal.Frame
import proofs.«100475_j59562606461344_1_alg».proof.Proof.Stages
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

section Stretches

variable {F : FTy → Type} [FloatOps F] (V : Valuation τ sig (Elt F))

/-! ## The first stretch, from any contents -/

theorem first_src :
    after (hostOps0 (F := F)) V (Proc.devRef .tc main_v3)
      = Cert.ReferenceIdeal.Stages.srcIdx (F := F) (V (Proc.devRef .tc main_arg1)) := by
  after_results <;> rfl

theorem first_dst :
    after (hostOps0 (F := F)) V (Proc.devRef .tc main_v6)
      = Cert.ReferenceIdeal.Stages.dstIdx (F := F) (V (Proc.devRef .tc main_arg1)) := by
  after_results <;> rfl

theorem first_deg :
    after (hostOps0 (F := F)) V (Proc.devRef .tc main_v10)
      = Cert.ReferenceIdeal.Stages.deg (F := F) (V (Proc.devRef .tc main_arg1)) := by
  after_results <;> rfl

/-- The mask "degree > 0". -/
theorem first_pos :
    after (hostOps0 (F := F)) V (Proc.devRef .tc main_v12)
      = cmpf (F := F) .ogt (Cert.ReferenceIdeal.Stages.deg (F := F) (V (Proc.devRef .tc main_arg1)))
          (broadcastInDim S100000 ![] bcast_S_S100000 (constant S_ .f32 0x00000000#32)) := by
  after_results <;> rfl

/-- The degree's inverse square root. -/
theorem first_rsqrt :
    after (hostOps0 (F := F)) V (Proc.devRef .tc main_v13)
      = Host.rsqrt (Cert.ReferenceIdeal.Stages.deg (F := F) (V (Proc.devRef .tc main_arg1))) := by
  after_results <;> rfl

theorem first_zero :
    after (hostOps0 (F := F)) V (Proc.devRef .tc main_cst_2) = constant (F := F) S_ .f32 0x00000000#32 := by
  after_results <;> rfl

/-! ## The second stretch, from any contents -/

theorem second_dinv :
    after (hostOps0_1 (F := F)) V (Proc.devRef .tc main_v14)
      = select (V (Proc.devRef .tc main_v12)) (V (Proc.devRef .tc main_v13))
          (broadcastInDim S100000 ![] bcast_S_S100000 (id (V (Proc.devRef .tc main_cst_2)))) := by
  after_results <;> rfl

theorem second_src : after (hostOps0_1 (F := F)) V (Proc.devRef .tc main_v3) = V (Proc.devRef .tc main_v3) := by
  after_results_simp

theorem second_dst : after (hostOps0_1 (F := F)) V (Proc.devRef .tc main_v6) = V (Proc.devRef .tc main_v6) := by
  after_results_simp

/-! ## The third stretch, from any contents -/

theorem third_norm :
    after (hostOps0_2 (F := F)) V (Proc.devRef .tc main_v29)
      = mulf (Host.gather gather_S100000_S1700000x1_S1700000_n_0_n_n_0_1_1 (V (Proc.devRef .tc main_v14))
            (Cert.ReferenceIdeal.Stages.wrapCol (F := F) (V (Proc.devRef .tc main_v3))))
          (Host.gather gather_S100000_S1700000x1_S1700000_n_0_n_n_0_1_1 (V (Proc.devRef .tc main_v14))
            (Cert.ReferenceIdeal.Stages.wrapCol (F := F) (V (Proc.devRef .tc main_v6)))) := by
  after_results_simp <;> rfl

end Stretches

variable (m : (ℓ : Loc nD τ sig) → Buf (Elt Ideal) ℓ) (ρ : Dev nD → PrngReg) (c : Dev nD)

/-! ## At the first region's entry -/

theorem entry_src : W3 m ρ c (Proc.devRef .tc main_v3) = Cert.ReferenceIdeal.Stages.srcIdx (F := Ideal) (m ((c : Thread nD τ).loc main_arg1)) := by
  dsimp only [W3, W2, W1]
  after_results_simp <;> rfl

theorem entry_dst : W3 m ρ c (Proc.devRef .tc main_v6) = Cert.ReferenceIdeal.Stages.dstIdx (F := Ideal) (m ((c : Thread nD τ).loc main_arg1)) := by
  dsimp only [W3, W2, W1]
  after_results_simp <;> rfl

theorem early_pos :
    W1 m ρ c (Proc.devRef .tc main_v12)
      = cmpf (F := Ideal) .ogt (Cert.ReferenceIdeal.Stages.deg (F := Ideal) (m ((c : Thread nD τ).loc main_arg1)))
          (broadcastInDim S100000 ![] bcast_S_S100000 (constant S_ .f32 0x00000000#32)) :=
  first_pos (W0 m ρ c)

theorem early_rsqrt :
    W1 m ρ c (Proc.devRef .tc main_v13)
      = Host.rsqrt (F := Ideal) (s := S100000) (φ := .f32)
          (Cert.ReferenceIdeal.Stages.deg (F := Ideal) (m ((c : Thread nD τ).loc main_arg1))) :=
  first_rsqrt (W0 m ρ c)

theorem early_zero : W1 m ρ c (Proc.devRef .tc main_cst_2) = constant (F := Ideal) S_ .f32 0x00000000#32 :=
  first_zero (W0 m ρ c)

/-- deg^(−1/2) where positive, zero elsewhere, as the second stretch leaves it. -/
theorem mid_dinv : W2 m ρ c (Proc.devRef .tc main_v14) = Cert.ReferenceIdeal.Stages.dinv (F := Ideal) (m ((c : Thread nD τ).loc main_arg1)) := by
  refine (second_dinv (W1 m ρ c)).trans ?_
  rw [early_pos, early_rsqrt, early_zero]
  rfl

theorem mid_src : W2 m ρ c (Proc.devRef .tc main_v3) = Cert.ReferenceIdeal.Stages.srcIdx (F := Ideal) (m ((c : Thread nD τ).loc main_arg1)) :=
  (second_src (W1 m ρ c)).trans (first_src (W0 m ρ c))

theorem mid_dst : W2 m ρ c (Proc.devRef .tc main_v6) = Cert.ReferenceIdeal.Stages.dstIdx (F := Ideal) (m ((c : Thread nD τ).loc main_arg1)) :=
  (second_dst (W1 m ρ c)).trans (first_dst (W0 m ρ c))

theorem entry_norm : W3 m ρ c (Proc.devRef .tc main_v29) = Cert.ReferenceIdeal.Stages.norm (F := Ideal) (m ((c : Thread nD τ).loc main_arg1)) := by
  refine (third_norm (W2 m ρ c)).trans ?_
  rw [mid_dinv, mid_src, mid_dst]
  rfl

theorem entry_x : W3 m ρ c (Proc.devRef .tc main_arg0) = m ((c : Thread nD τ).loc main_arg0) := by
  dsimp only [W3, W2, W1]
  after_results_simp <;> rfl

theorem entry_w1 : W3 m ρ c (Proc.devRef .tc main_arg2) = m ((c : Thread nD τ).loc main_arg2) := by
  dsimp only [W3, W2, W1]
  after_results_simp <;> rfl

theorem entry_b1 : W3 m ρ c (Proc.devRef .tc main_arg3) = m ((c : Thread nD τ).loc main_arg3) := by
  dsimp only [W3, W2, W1]
  after_results_simp <;> rfl

theorem entry_w2 : W3 m ρ c (Proc.devRef .tc main_arg4) = m ((c : Thread nD τ).loc main_arg4) := by
  dsimp only [W3, W2, W1]
  after_results_simp <;> rfl

theorem entry_b2 : W3 m ρ c (Proc.devRef .tc main_arg5) = m ((c : Thread nD τ).loc main_arg5) := by
  dsimp only [W3, W2, W1]
  after_results_simp <;> rfl

end Cert.KernelIdeal.Whole

end
-- ==== Proof.RegionFirst.lean ====
/-
  The first region: x · W1, one block of 4000 rows per grid point.

  The region's grid has 25 points; point t reads rows 4000·t … 4000·t + 3999 of the left array (all 128 columns)
  and the whole right array, multiplies them on the matrix unit into a zero accumulator, and writes the 4000 × 64
  result back as rows 4000·t … of the output array. Rows of a product are products of rows, and the 25 row
  blocks tile the 100000 rows, so after the region the output array holds the whole product
  `rowsTimes a w (r, j) = ∑ k, a (r, k) · w (k, j)` of the two arrays as the region found them.
-/
import proofs.«100475_j59562606461344_1_alg».proof.Proof.Gen.KernelIdeal.Frame
import proofs.«100475_j59562606461344_1_alg».proof.Proof.LibRowsCols
import Idealize.ShloMosaic.Lib.Pipeline.Value

set_option maxRecDepth 16384

noncomputable section

namespace Cert.KernelIdeal.First

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Every access of the body is at offset zero of its buffer. -/
theorem zeroOffsets : (![0, 0] : Fin 2 → Nat) = fun _ => 0 := funext fun a => by fin_cases a <;> rfl

/-- The body's contraction is rows times columns: one contracted axis of extent 128, the left operand read at
    (row, k), the right at (k, column). -/
theorem rowsCols : RowsCols (R := 4000) (K := 128) (N := 64) dot_S4000x128_S128x64_S4000x64_1_0_0_1_n_n where
  rank := rfl
  size := rfl
  l0 := fun _ _ => rfl
  l1 := fun _ _ => rfl
  r0 := fun _ _ => rfl
  r1 := fun _ _ => rfl

/-- What the body leaves in its output buffer, at (r, j): the product of the two blocks it loaded. -/
theorem body_apply (x0 : Vec Ideal S4000x128 .f32) (x1 : Vec Ideal S128x64 .f32) (j : S4000x64.Idx) :
    out0_2 x0 x1 j = rowsTimes x0 x1 j := by
  unfold out0_2
  rw [View.canon_unit_zero zeroOffsets]
  simp only [View.ld_unit_zero (S := S4000x128) zeroOffsets, View.ld_unit_zero (S := S128x64) zeroOffsets]
  unfold k0_pay1
  exact matmul_zero_apply rowsCols none (φ₁ := .bf16) (φ₂ := .bf16) x0 x1 j

/-- The printed index maps over the 25 points: the row-block index of the left and the output windows is the
    point itself, every other block index is zero. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the region found them. -/
theorem flushed_eq (c : Dev nD) (t : Fin cfg0.N) :
    (dat0 V c).flushed 2 t
      = ((cfg0.win 2).blk t).view.read (Elt Ideal)
          (rowsTimes (M := 100000) (K := 128) (N := 64) (V c main_arg0) (V c main_arg2)) := by
  show (cfg0.win 2).cut (grid0.coords t) ((dat0 V c).after 2 t) = _
  rw [after0_2]
  obtain ⟨e00, e01, e10, e11, e20, e21⟩ := blockIdx t
  funext y
  show out0_2 (iblk0 V c 0 t) (iblk0 V c 1 t) y
    = rowsTimes (M := 100000) (K := 128) (N := 64) (V c main_arg0) (V c main_arg2) (((cfg0.win 2).blk t).view.emb y)
  refine (body_apply (iblk0 V c 0 t) (iblk0 V c 1 t) y).trans ?_
  refine rowsTimes_of_rows (M := 100000) (R := 4000) (K := 128) (N := 64) (N' := 64) (V c main_arg0) (V c main_arg2)
    (iblk0 V c 0 t) (iblk0 V c 1 t) y (((cfg0.win 2).blk t).view.emb y) (fun k => ?_) (fun k => ?_)
  · show V c main_arg0 (((cfg0.win 0).blk t).view.emb (ix2 (y 0) k)) = _
    refine congrArg (V c main_arg0) ?_
    funext a; apply Fin.ext
    match a with
    | ⟨0, _⟩ => show win0_0.index t (0 : Fin 2) * 4000 + 1 * (y 0).val = win0_2.index t (0 : Fin 2) * 4000 + 1 * (y 0).val; omega
    | ⟨1, _⟩ => show win0_0.index t (1 : Fin 2) * 128 + 1 * k.val = k.val; omega
  · show V c main_arg2 (((cfg0.win 1).blk t).view.emb (ix2 k (y 1))) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * (y 1).val = win0_2.index t (1 : Fin 2) * 64 + 1 * (y 1).val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Row r of the output array is written back by point r / 4000: the 25 row blocks tile the array. -/
theorem cover (i : S100000x64.Idx) :
    ∃ t : Fin cfg0.N, (cfg0.win 2).flush t = true ∧ i ∈ ((cfg0.win 2).blk t).view.set := by
  have hN : cfg0.N = 25 := N_0
  have h0 : (i 0).val < 100000 := (i 0).isLt
  have h1 : (i 1).val < 64 := (i 1).isLt
  obtain ⟨t, ht⟩ : ∃ t : Fin cfg0.N, t.val = (i 0).val / 4000 := ⟨⟨(i 0).val / 4000, by rw [hN]; omega⟩, rfl⟩
  obtain ⟨-, -, -, -, e20, e21⟩ := blockIdx t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- After the region its output array holds the whole product of the two arrays as the region found them. -/
theorem product (c : Dev nD) :
    (dat0 V c).arrAt 2 cfg0.N = rowsTimes (M := 100000) (K := 128) (N := 64) (V c main_arg0) (V c main_arg2) :=
  (dat0 V c).arrAt_eq_of_cover 2 (rowsTimes (M := 100000) (K := 128) (N := 64) (V c main_arg0) (V c main_arg2))
    (fun t _ => flushed_eq V c t) cover

end Cert.KernelIdeal.First

end
-- ==== Proof.RegionSecond.lean ====
/-
  The second region: h · W2 (h the rectified first layer), one block of 4000 rows per grid point.

  The region's grid has 25 points; point t reads rows 4000·t … 4000·t + 3999 of the left array (all 64 columns)
  and the whole right array, multiplies them on the matrix unit into a zero accumulator, and writes the 4000 × 32
  result back as rows 4000·t … of the output array. Rows of a product are products of rows, and the 25 row
  blocks tile the 100000 rows, so after the region the output array holds the whole product
  `rowsTimes a w (r, j) = ∑ k, a (r, k) · w (k, j)` of the two arrays as the region found them.
-/
import proofs.«100475_j59562606461344_1_alg».proof.Proof.Gen.KernelIdeal.Frame
import proofs.«100475_j59562606461344_1_alg».proof.Proof.LibRowsCols
import Idealize.ShloMosaic.Lib.Pipeline.Value

set_option maxRecDepth 16384

noncomputable section

namespace Cert.KernelIdeal.Second

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Every access of the body is at offset zero of its buffer. -/
theorem zeroOffsets : (![0, 0] : Fin 2 → Nat) = fun _ => 0 := funext fun a => by fin_cases a <;> rfl

/-- The body's contraction is rows times columns: one contracted axis of extent 64, the left operand read at
    (row, k), the right at (k, column). -/
theorem rowsCols : RowsCols (R := 4000) (K := 64) (N := 32) dot_S4000x64_S64x32_S4000x32_1_0_0_1_n_n where
  rank := rfl
  size := rfl
  l0 := fun _ _ => rfl
  l1 := fun _ _ => rfl
  r0 := fun _ _ => rfl
  r1 := fun _ _ => rfl

/-- What the body leaves in its output buffer, at (r, j): the product of the two blocks it loaded. -/
theorem body_apply (x0 : Vec Ideal S4000x64 .f32) (x1 : Vec Ideal S64x32 .f32) (j : S4000x32.Idx) :
    out1_2 x0 x1 j = rowsTimes x0 x1 j := by
  unfold out1_2
  rw [View.canon_unit_zero zeroOffsets]
  simp only [View.ld_unit_zero (S := S4000x64) zeroOffsets, View.ld_unit_zero (S := S64x32) zeroOffsets]
  unfold k1_pay1
  rw [shapeCast_self]
  exact matmul_zero_apply rowsCols none (φ₁ := .bf16) (φ₂ := .bf16) x0 x1 j

/-- The printed index maps over the 25 points: the row-block index of the left and the output windows is the
    point itself, every other block index is zero. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the two arrays as the region found them. -/
theorem flushed_eq (c : Dev nD) (t : Fin cfg1.N) :
    (dat1 V c).flushed 2 t
      = ((cfg1.win 2).blk t).view.read (Elt Ideal)
          (rowsTimes (M := 100000) (K := 64) (N := 32) (V c main_v47) (V c main_arg4)) := by
  show (cfg1.win 2).cut (grid1.coords t) ((dat1 V c).after 2 t) = _
  rw [after1_2]
  obtain ⟨e00, e01, e10, e11, e20, e21⟩ := blockIdx t
  funext y
  show out1_2 (iblk1 V c 0 t) (iblk1 V c 1 t) y
    = rowsTimes (M := 100000) (K := 64) (N := 32) (V c main_v47) (V c main_arg4) (((cfg1.win 2).blk t).view.emb y)
  refine (body_apply (iblk1 V c 0 t) (iblk1 V c 1 t) y).trans ?_
  refine rowsTimes_of_rows (M := 100000) (R := 4000) (K := 64) (N := 32) (N' := 32) (V c main_v47) (V c main_arg4)
    (iblk1 V c 0 t) (iblk1 V c 1 t) y (((cfg1.win 2).blk t).view.emb y) (fun k => ?_) (fun k => ?_)
  · show V c main_v47 (((cfg1.win 0).blk t).view.emb (ix2 (y 0) k)) = _
    refine congrArg (V c main_v47) ?_
    funext a; apply Fin.ext
    match a with
    | ⟨0, _⟩ => show win1_0.index t (0 : Fin 2) * 4000 + 1 * (y 0).val = win1_2.index t (0 : Fin 2) * 4000 + 1 * (y 0).val; omega
    | ⟨1, _⟩ => show win1_0.index t (1 : Fin 2) * 64 + 1 * k.val = k.val; omega
  · show V c main_arg4 (((cfg1.win 1).blk t).view.emb (ix2 k (y 1))) = _
    refine congrArg (V c main_arg4) ?_
    funext a; apply Fin.ext
    match a with
    | ⟨0, _⟩ => show win1_1.index t (0 : Fin 2) * 64 + 1 * k.val = k.val; omega
    | ⟨1, _⟩ => show win1_1.index t (1 : Fin 2) * 32 + 1 * (y 1).val = win1_2.index t (1 : Fin 2) * 32 + 1 * (y 1).val; omega

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v48).slice (win1_2.rect t)).set ↔ _
  rw [View.set_slice_whole, Rect.mem_set_unit]
  exact Iff.rfl

/-- Row r of the output array is written back by point r / 4000: the 25 row blocks tile the array. -/
theorem cover (i : S100000x32.Idx) :
    ∃ t : Fin cfg1.N, (cfg1.win 2).flush t = true ∧ i ∈ ((cfg1.win 2).blk t).view.set := by
  have hN : cfg1.N = 25 := N_1
  have h0 : (i 0).val < 100000 := (i 0).isLt
  have h1 : (i 1).val < 32 := (i 1).isLt
  obtain ⟨t, ht⟩ : ∃ t : Fin cfg1.N, t.val = (i 0).val / 4000 := ⟨⟨(i 0).val / 4000, by rw [hN]; omega⟩, rfl⟩
  obtain ⟨-, -, -, -, e20, e21⟩ := blockIdx t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 32 ≤ (i 1).val ∧ (i 1).val < win1_2.index t (1 : Fin 2) * 32 + 32; omega

/-- After the region its output array holds the whole product of the two arrays as the region found them. -/
theorem product (c : Dev nD) :
    (dat1 V c).arrAt 2 cfg1.N = rowsTimes (M := 100000) (K := 64) (N := 32) (V c main_v47) (V c main_arg4) :=
  (dat1 V c).arrAt_eq_of_cover 2 (rowsTimes (M := 100000) (K := 64) (N := 32) (V c main_v47) (V c main_arg4))
    (fun t _ => flushed_eq V c t) cover

end Cert.KernelIdeal.Second

end
-- ==== Proof.KernelValue.lean ====
/-
  What the idealized kernel leaves in its result buffer, as a function of the argument arrays.

  The boundaries' contents are followed from the first region's entry to the return:

    * the first region leaves x · W1 in its output array and nothing else changed;
    * the next stretch aggregates it over the edges and adds the first bias, the one after (the helper that
      rectifies) takes the maximum with zero: `Stages.hidden (x · W1) e b1`, reading the edge vectors and the
      normalisation where the first stretches left them;
    * the second region leaves (that) · W2 in its output array;
    * the last stretch aggregates it and adds the second bias: `Stages.output`.

  Each stretch is read at an arbitrary starting valuation of the buffers (an operation writes its own result
  buffer and leaves the others); a region changes its output array only. The host operations are the reference's
  own, so each stage is the reference's stage by unfolding.
-/
import proofs.«100475_j59562606461344_1_alg».proof.Proof.KernelEntry
import proofs.«100475_j59562606461344_1_alg».proof.Proof.RegionFirst
import proofs.«100475_j59562606461344_1_alg».proof.Proof.RegionSecond

set_option maxRecDepth 16384

noncomputable section

namespace Cert.KernelIdeal.Whole

open Cert.KernelIdeal Cert.KernelIdeal.Gen Cert.Dense
open Idealize.ShloMosaic Idealize.ShloMosaic.TcCoe Idealize.ShloMosaic.StableHlo Idealize.SL.Sem

section Stretches

variable {F : FTy → Type} [FloatOps F] (V : Valuation τ sig (Elt F))

/-- The stretch after the first region, from any contents: the first layer's aggregation and bias. -/
theorem fourth_aggregate :
    after (hostOps1 (F := F)) V (Proc.devRef .tc main_v46)
      = Cert.ReferenceIdeal.Stages.aggregate64 (F := F) (V (Proc.devRef .tc main_v30)) (V (Proc.devRef .tc main_v3))
          (V (Proc.devRef .tc main_v6)) (V (Proc.devRef .tc main_v29)) (V (Proc.devRef .tc main_arg3)) := by
  after_results_simp <;> rfl

/-- The helper that rectifies, from any contents. -/
theorem fifth_rectify :
    after (hostOps1_1 (F := F)) V (Proc.devRef .tc main_v47)
      = Cert.ReferenceIdeal.Stages.rectify (F := F) (V (Proc.devRef .tc main_v46)) := by
  after_results_simp <;> rfl

/-- The last stretch, from any contents: the second layer's aggregation and bias. -/
theorem last_aggregate :
    after (hostOps2 (F := F)) V (Proc.devRef .tc main_v64)
      = Cert.ReferenceIdeal.Stages.aggregate32 (F := F) (V (Proc.devRef .tc main_v48)) (V (Proc.devRef .tc main_v3))
          (V (Proc.devRef .tc main_v6)) (V (Proc.devRef .tc main_v29)) (V (Proc.devRef .tc main_arg5)) := by
  after_results_simp <;> rfl

end Stretches

variable (m : (ℓ : Loc nD τ sig) → Buf (Elt Ideal) ℓ) (ρ : Dev nD → PrngReg) (c : Dev nD)

/-! ## After the first region: its output array holds x · W1 -/

theorem after_first :
    W4 m ρ c (Proc.devRef .tc main_v30)
      = rowsTimes (M := 100000) (K := 128) (N := 64) (m ((c : Thread nD τ).loc main_arg0)) (m ((c : Thread nD τ).loc main_arg2)) := by
  refine (W4_arr m ρ c 2).trans ?_
  rw [First.product (V3 m ρ) c]
  show rowsTimes (M := 100000) (K := 128) (N := 64) (W3 m ρ c (Proc.devRef .tc main_arg0)) (W3 m ρ c (Proc.devRef .tc main_arg2)) = _
  rw [entry_x, entry_w1]

theorem after_first_src : W4 m ρ c (Proc.devRef .tc main_v3) = Cert.ReferenceIdeal.Stages.srcIdx (F := Ideal) (m ((c : Thread nD τ).loc main_arg1)) :=
  (W4_of_ne m ρ c main_v3 (by decide)).trans (entry_src m ρ c)

theorem after_first_dst : W4 m ρ c (Proc.devRef .tc main_v6) = Cert.ReferenceIdeal.Stages.dstIdx (F := Ideal) (m ((c : Thread nD τ).loc main_arg1)) :=
  (W4_of_ne m ρ c main_v6 (by decide)).trans (entry_dst m ρ c)

theorem after_first_norm : W4 m ρ c (Proc.devRef .tc main_v29) = Cert.ReferenceIdeal.Stages.norm (F := Ideal) (m ((c : Thread nD τ).loc main_arg1)) :=
  (W4_of_ne m ρ c main_v29 (by decide)).trans (entry_norm m ρ c)

theorem after_first_b1 : W4 m ρ c (Proc.devRef .tc main_arg3) = m ((c : Thread nD τ).loc main_arg3) :=
  (W4_of_ne m ρ c main_arg3 (by decide)).trans (entry_b1 m ρ c)

/-! ## At the second region's entry -/

theorem entry2_aggregate :
    W5 m ρ c (Proc.devRef .tc main_v46)
      = Cert.ReferenceIdeal.Stages.aggregate64 (F := Ideal)
          (rowsTimes (M := 100000) (K := 128) (N := 64) (m ((c : Thread nD τ).loc main_arg0)) (m ((c : Thread nD τ).loc main_arg2)))
          (Cert.ReferenceIdeal.Stages.srcIdx (F := Ideal) (m ((c : Thread nD τ).loc main_arg1)))
          (Cert.ReferenceIdeal.Stages.dstIdx (F := Ideal) (m ((c : Thread nD τ).loc main_arg1)))
          (Cert.ReferenceIdeal.Stages.norm (F := Ideal) (m ((c : Thread nD τ).loc main_arg1)))
          (m ((c : Thread nD τ).loc main_arg3)) := by
  refine (fourth_aggregate (W4 m ρ c)).trans ?_
  rw [after_first, after_first_src, after_first_dst, after_first_norm, after_first_b1]

theorem entry2_hidden :
    W6 m ρ c (Proc.devRef .tc main_v47)
      = Cert.ReferenceIdeal.Stages.hidden (F := Ideal)
          (rowsTimes (M := 100000) (K := 128) (N := 64) (m ((c : Thread nD τ).loc main_arg0)) (m ((c : Thread nD τ).loc main_arg2)))
          (m ((c : Thread nD τ).loc main_arg1)) (m ((c : Thread nD τ).loc main_arg3)) := by
  refine (fifth_rectify (W5 m ρ c)).trans ?_
  rw [entry2_aggregate]
  rfl

theorem entry2_w2 : W6 m ρ c (Proc.devRef .tc main_arg4) = m ((c : Thread nD τ).loc main_arg4) := by
  dsimp only [W6, W5]
  after_results_simp
  rw [W4_of_ne m ρ c main_arg4 (by decide), entry_w2]

theorem entry2_src : W6 m ρ c (Proc.devRef .tc main_v3) = Cert.ReferenceIdeal.Stages.srcIdx (F := Ideal) (m ((c : Thread nD τ).loc main_arg1)) := by
  dsimp only [W6, W5]
  after_results_simp
  exact after_first_src m ρ c

theorem entry2_dst : W6 m ρ c (Proc.devRef .tc main_v6) = Cert.ReferenceIdeal.Stages.dstIdx (F := Ideal) (m ((c : Thread nD τ).loc main_arg1)) := by
  dsimp only [W6, W5]
  after_results_simp
  exact after_first_dst m ρ c

theorem entry2_norm : W6 m ρ c (Proc.devRef .tc main_v29) = Cert.ReferenceIdeal.Stages.norm (F := Ideal) (m ((c : Thread nD τ).loc main_arg1)) := by
  dsimp only [W6, W5]
  after_results_simp
  exact after_first_norm m ρ c

theorem entry2_b2 : W6 m ρ c (Proc.devRef .tc main_arg5) = m ((c : Thread nD τ).loc main_arg5) := by
  dsimp only [W6, W5]
  after_results_simp
  rw [W4_of_ne m ρ c main_arg5 (by decide), entry_b2]

/-! ## After the second region: its output array holds (the rectified first layer) · W2 -/

theorem after_second :
    W7 m ρ c (Proc.devRef .tc main_v48)
      = rowsTimes (M := 100000) (K := 64) (N := 32)
          (Cert.ReferenceIdeal.Stages.hidden (F := Ideal)
            (rowsTimes (M := 100000) (K := 128) (N := 64) (m ((c : Thread nD τ).loc main_arg0)) (m ((c : Thread nD τ).loc main_arg2)))
            (m ((c : Thread nD τ).loc main_arg1)) (m ((c : Thread nD τ).loc main_arg3)))
          (m ((c : Thread nD τ).loc main_arg4)) := by
  refine (W7_arr m ρ c 2).trans ?_
  rw [Second.product (V6 m ρ) c]
  show rowsTimes (M := 100000) (K := 64) (N := 32) (W6 m ρ c (Proc.devRef .tc main_v47)) (W6 m ρ c (Proc.devRef .tc main_arg4)) = _
  rw [entry2_hidden, entry2_w2]

theorem after_second_src : W7 m ρ c (Proc.devRef .tc main_v3) = Cert.ReferenceIdeal.Stages.srcIdx (F := Ideal) (m ((c : Thread nD τ).loc main_arg1)) :=
  (W7_of_ne m ρ c main_v3 (by decide)).trans (entry2_src m ρ c)

theorem after_second_dst : W7 m ρ c (Proc.devRef .tc main_v6) = Cert.ReferenceIdeal.Stages.dstIdx (F := Ideal) (m ((c : Thread nD τ).loc main_arg1)) :=
  (W7_of_ne m ρ c main_v6 (by decide)).trans (entry2_dst m ρ c)

theorem after_second_norm : W7 m ρ c (Proc.devRef .tc main_v29) = Cert.ReferenceIdeal.Stages.norm (F := Ideal) (m ((c : Thread nD τ).loc main_arg1)) :=
  (W7_of_ne m ρ c main_v29 (by decide)).trans (entry2_norm m ρ c)

theorem after_second_b2 : W7 m ρ c (Proc.devRef .tc main_arg5) = m ((c : Thread nD τ).loc main_arg5) :=
  (W7_of_ne m ρ c main_arg5 (by decide)).trans (entry2_b2 m ρ c)

/-! ## The result: the last stretch applied to it -/

theorem result :
    W8 m ρ c (Proc.devRef .tc main_v64)
      = Cert.ReferenceIdeal.Stages.output (F := Ideal)
          (rowsTimes (M := 100000) (K := 64) (N := 32)
            (Cert.ReferenceIdeal.Stages.hidden (F := Ideal)
              (rowsTimes (M := 100000) (K := 128) (N := 64) (m ((c : Thread nD τ).loc main_arg0)) (m ((c : Thread nD τ).loc main_arg2)))
              (m ((c : Thread nD τ).loc main_arg1)) (m ((c : Thread nD τ).loc main_arg3)))
            (m ((c : Thread nD τ).loc main_arg4)))
          (m ((c : Thread nD τ).loc main_arg1)) (m ((c : Thread nD τ).loc main_arg5)) := by
  refine (last_aggregate (W7 m ρ c)).trans ?_
  rw [after_second, after_second_src, after_second_dst, after_second_norm, after_second_b2]
  rfl

end Cert.KernelIdeal.Whole

end
-- ==== Proof.lean ====
/-
  The certificate of a two-layer graph convolution whose two linear maps run as row-blocked matrix products on
  the TensorCore, against the plain jnp network.

  Both programs compute, from node features x [100000, 128], an edge list e [2, 1600000], and the layers'
  weights and biases,
      out = A (relu (A (x · W1) + b1) · W2) + b2,
  where A is the symmetric-normalised aggregation over the edges with one self-loop added per node: gather the
  rows at the edges' sources, scale each by deg(src)^(−1/2) · deg(dst)^(−1/2), scatter-add at the destinations.
  The aggregation, the biases and the rectifier are the same host operations in both programs, applied to the
  same arrays. They differ in the two products only: the kernel computes each one block of 4000 rows at a time
  (25 grid points), on the matrix unit, into a zero accumulator, after casting its operands to bf16; the reference
  by one `dot_general`. On the extended reals a format cast is the identity, both contractions are the sum over k
  of a (r, k) · w (k, j), rows of a product are products of rows, and the 25 row blocks tile the array — so the
  kernel's output arrays hold the same products. No law that needs finite entries is used (only that a sum over
  the contraction index may be re-indexed), so the precondition is never opened.

  The three frames: the kernel's two (at the word level and idealized) are the generated ones; the reference has
  no kernel, and its frame is its run with the result dropped. The idealization rewrote nothing, so `preserves`
  is trivial.
-/
import proofs.«100475_j59562606461344_1_alg».proof.Defs
import proofs.«100475_j59562606461344_1_alg».proof.Proof.Gen.Kernel
import proofs.«100475_j59562606461344_1_alg».proof.Proof.Gen.Kernel.Frame
import proofs.«100475_j59562606461344_1_alg».proof.Proof.Gen.KernelIdeal
import proofs.«100475_j59562606461344_1_alg».proof.Proof.Gen.KernelIdeal.Frame
import proofs.«100475_j59562606461344_1_alg».proof.Proof.Gen.ReferenceIdeal
import proofs.«100475_j59562606461344_1_alg».proof.Proof.Gen.Pre_finite_inputs
import proofs.«100475_j59562606461344_1_alg».proof.Proof.RefRun
import proofs.«100475_j59562606461344_1_alg».proof.Proof.RefProducts
import proofs.«100475_j59562606461344_1_alg».proof.Proof.KernelRun
import proofs.«100475_j59562606461344_1_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs end with the result buffer at
    `output (rowsTimes (hidden (rowsTimes x W1) e b1) W2) e b2`: the kernel by following its boundaries' contents
    through the two regions, the reference by reading its composed term stage by stage. -/
theorem algebraic : Cert.algebraic_KernelIdeal_ReferenceIdeal := by
  intro m ρ m' ρ' _ hagree
  refine ⟨fun c => Cert.KernelIdeal.Gen.W8 m ρ c (Proc.devRef .tc Cert.KernelIdeal.main_v64), Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  refine (Cert.ReferenceIdeal.Stages.result_products m' c).trans ?_
  rw [h0, h1, h2, h3, h4, h5]
  exact (Cert.KernelIdeal.Whole.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
